-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S600000x128 .f32) (main_arg2 : FVec F S256x128 .f32) (main_arg3 : FVec F S128 .f32) (main_arg4 : FVec F S128x128 .f32) (main_arg5 : FVec F S128 .f32) (main_arg6 : IVec S600000 32) (main_arg7 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩
abbrev S100000 : Shape := ⟨1, ![100000]⟩
abbrev S100000x1 : Shape := ⟨2, ![100000, 1]⟩

abbrev nBuf : Space → Nat
  | .hbm => 39
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S128x128, .f32⟩
  | .hbm, ⟨18, _⟩ => ⟨S128x128, .f32⟩
  | .hbm, ⟨19, _⟩ => ⟨S1x128, .f32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S5000x128_S128x128_S5000x128_1_0_0_1_n_n_wf : DotDims.WF S5000x128 S128x128 S5000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S600000x128.size a
  hwx0_0 : ∀ i : grid0.Coords, EltTy.bits .f32 = 32 ∨ (Rect.block (s := S600000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S600000x128.size a
  hwx0_1 : ∀ i : grid0.Coords, EltTy.bits .f32 = 32 ∨ (Rect.block (s := S600000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S600000x128.size a
  hwx0_5 : ∀ i : grid0.Coords, EltTy.bits .f32 = 32 ∨ (Rect.block (s := S600000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x256 : Shape := ⟨2, ![600000, 256]⟩
abbrev S1x128 : Shape := ⟨2, ![1, 128]⟩
abbrev S100000 : Shape := ⟨1, ![100000]⟩
abbrev S100000x1 : Shape := ⟨2, ![100000, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x256, .f32⟩
  | .hbm, ⟨18, _⟩ => ⟨S600000x128, .f32⟩
  | .hbm, ⟨19, _⟩ => ⟨S1x128, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S600000, .f32⟩
  | .hbm, ⟨28, _⟩ => ⟨S_, .f32⟩
  | .hbm, ⟨29, _⟩ => ⟨S100000, .f32⟩
  | .hbm, ⟨30, _⟩ => ⟨S600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .i1⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  dot_S600000x256_S256x128_S600000x128_1_0_0_1_n_n_wf : DotDims.WF S600000x256 S256x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibEdgeLayer.lean ====
/-
  One layer of message passing over a graph, entry by entry, on the extended reals.

  Every edge carries a message: the features of its source node times the upper half of a weight matrix, plus the
  edge's own features times the lower half, plus a bias row. Laying the two feature rows side by side and multiplying
  by the whole weight matrix gives the same entry, because a sum over the columns of the joined row is the sum over
  its first half plus the sum over its second half; addition on the extended reals is commutative and associative at
  every value, infinite ones included, so no entry has to be finite. A node's new features are its averaged messages
  plus its own features times a second weight matrix plus a second bias row, passed through a leaky rectifier; adding
  the bias row before or after the averaged messages is again only a change of brackets. Both functions look at a row
  of their first arguments only through that row, so computed on a block of consecutive rows they give the rows of
  the function computed on the whole array. Everything here is generic in the numbers of rows and columns; the
  rectifier's zero and slope are the f32 words 0x00000000 and 0x3E6AAAAB, kept as words.
-/
import proofs.«131076_j42898133352616_1_alg».proof.Proof.LibDense

noncomputable section

open scoped BigOperators

namespace Cert.EdgeLayer

open Idealize.ShloMosaic Idealize.ShloMosaic.ValueIdx Cert.Dense

variable {M K N : ℕ}

/-- The messages: entry (r, c) is (g·wt)(r, c) + (e·wb)(r, c) + b(0, c). -/
def msg (g e : Mat M K) (wt wb : Mat K N) (b : Mat 1 N) : Mat M N :=
  fun i => (mm g wt i + mm e wb i) + b (ix2 (0 : Fin 1) (i 1))

/-- The leaky rectifier: x where x ≥ 0, the slope times x elsewhere. The comparison, the zero and the slope are the
    ones both programs spell, so neither word is ever evaluated. -/
def leak (x : EReal) : EReal :=
  Scalar.select (FloatOps.cmpf (F := Ideal) (φ := .f32) .oge x (FloatOps.ofBits (F := Ideal) .f32 0x00000000#32)) x
    (FloatOps.mulf (F := Ideal) (φ := .f32) (FloatOps.ofBits (F := Ideal) .f32 0x3E6AAAAB#32) x)

/-- The node update: entry (r, c) is the rectifier of nb(r, c) + ((x·w)(r, c) + b(0, c)). -/
def comb (nb : Mat M N) (x : Mat M K) (w : Mat K N) (b : Mat 1 N) : Mat M N :=
  fun i => leak (nb i + (mm x w i + b (ix2 (0 : Fin 1) (i 1))))

/-- The messages of a block of rows are those rows of the messages of the whole arrays. -/
theorem msg_rows {M' : ℕ} (G E : Mat M' K) (g e : Mat M K) (wt wb : Mat K N) (b : Mat 1 N) (ρ : Fin M → Fin M')
    (hg : ∀ p k, g (ix2 p k) = G (ix2 (ρ p) k)) (he : ∀ p k, e (ix2 p k) = E (ix2 (ρ p) k)) (p : Fin M) (q : Fin N) :
    msg g e wt wb b (ix2 p q) = msg G E wt wb b (ix2 (ρ p) q) := by
  show (mm g wt (ix2 p q) + mm e wb (ix2 p q)) + b (ix2 (0 : Fin 1) q)
     = (mm G wt (ix2 (ρ p) q) + mm E wb (ix2 (ρ p) q)) + b (ix2 (0 : Fin 1) q)
  rw [mm_rows G g wt ρ hg p q, mm_rows E e wb ρ he p q]

/-- The update of a block of rows is those rows of the update of the whole arrays. -/
theorem comb_rows {M' : ℕ} (NB : Mat M' N) (X : Mat M' K) (nb : Mat M N) (x : Mat M K) (w : Mat K N) (b : Mat 1 N)
    (ρ : Fin M → Fin M') (hnb : ∀ p q, nb (ix2 p q) = NB (ix2 (ρ p) q)) (hx : ∀ p k, x (ix2 p k) = X (ix2 (ρ p) k))
    (p : Fin M) (q : Fin N) :
    comb nb x w b (ix2 p q) = comb NB X w b (ix2 (ρ p) q) := by
  show leak (nb (ix2 p q) + (mm x w (ix2 p q) + b (ix2 (0 : Fin 1) q)))
     = leak (NB (ix2 (ρ p) q) + (mm X w (ix2 (ρ p) q) + b (ix2 (0 : Fin 1) q)))
  rw [mm_rows X x w ρ hx p q, hnb p q]

/-- Two rows laid side by side times a matrix: the first row times the upper half plus the second row times the
    lower half. -/
theorem mm_joined (c : Mat M (K + K)) (W : Mat (K + K) N) (g e : Mat M K) (wt wb : Mat K N)
    (hcl : ∀ p (k : Fin K), c (ix2 p (Fin.castAdd K k)) = g (ix2 p k))
    (hcr : ∀ p (k : Fin K), c (ix2 p (Fin.natAdd K k)) = e (ix2 p k))
    (hwt : ∀ (k : Fin K) q, wt (ix2 k q) = W (ix2 (Fin.castAdd K k) q))
    (hwb : ∀ (k : Fin K) q, wb (ix2 k q) = W (ix2 (Fin.natAdd K k) q)) (p : Fin M) (q : Fin N) :
    mm c W (ix2 p q) = mm g wt (ix2 p q) + mm e wb (ix2 p q) := by
  show ∑ k : Fin (K + K), c (ix2 p k) * W (ix2 k q)
     = ∑ k : Fin K, g (ix2 p k) * wt (ix2 k q) + ∑ k : Fin K, e (ix2 p k) * wb (ix2 k q)
  rw [Fin.sum_univ_add]
  congr 1
  · exact Finset.sum_congr rfl fun k _ => by rw [hcl, hwt]
  · exact Finset.sum_congr rfl fun k _ => by rw [hcr, hwb]

/-- The block law of the messages over plain indices: entry j of the block's messages is entry i of the whole
    arrays' when i names the row that row j 0 of the block is and the same column. -/
theorem msg_block {M' : ℕ} (G E : Mat M' K) (g e : Mat M K) (wt wb : Mat K N) (b : Mat 1 N) (ρ : Fin M → Fin M')
    (hg : ∀ p k, g (ix2 p k) = G (ix2 (ρ p) k)) (he : ∀ p k, e (ix2 p k) = E (ix2 (ρ p) k))
    (j : (⟨2, ![M, N]⟩ : Shape).Idx) (i : (⟨2, ![M', N]⟩ : Shape).Idx) (h0 : i 0 = ρ (j 0)) (h1 : i 1 = j 1) :
    msg g e wt wb b j = msg G E wt wb b i := by
  rw [eq_ix2 j, eq_ix2 i, h0, h1]
  exact msg_rows G E g e wt wb b ρ hg he (j 0) (j 1)

/-- The block law of the node update over plain indices. -/
theorem comb_block {M' : ℕ} (NB : Mat M' N) (X : Mat M' K) (nb : Mat M N) (x : Mat M K) (w : Mat K N) (b : Mat 1 N)
    (ρ : Fin M → Fin M') (hnb : ∀ p q, nb (ix2 p q) = NB (ix2 (ρ p) q)) (hx : ∀ p k, x (ix2 p k) = X (ix2 (ρ p) k))
    (j : (⟨2, ![M, N]⟩ : Shape).Idx) (i : (⟨2, ![M', N]⟩ : Shape).Idx) (h0 : i 0 = ρ (j 0)) (h1 : i 1 = j 1) :
    comb nb x w b j = comb NB X w b i := by
  rw [eq_ix2 j, eq_ix2 i, h0, h1]
  exact comb_rows NB X nb x w b ρ hnb hx (j 0) (j 1)

/-- The update with the bias row added last is the update with it added to the product first. -/
theorem comb_assoc (nb : Mat M N) (x : Mat M K) (w : Mat K N) (b : Mat 1 N) (p : Fin M) (q : Fin N) :
    leak ((nb (ix2 p q) + mm x w (ix2 p q)) + b (ix2 (0 : Fin 1) q)) = comb nb x w b (ix2 p q) := by
  show _ = leak (nb (ix2 p q) + (mm x w (ix2 p q) + b (ix2 (0 : Fin 1) q)))
  rw [add_assoc]

end Cert.EdgeLayer

end
-- ==== Proof.RefValue.lean ====
/-
  The reference program's result as the layer's two functions.

  The reference lays each edge's gathered source features and its own features side by side and multiplies the
  joined rows by the whole weight matrix, then adds the bias; entry by entry that is the messages built from the two
  halves of the weight matrix, because a sum over the joined columns is the sum over the first half plus the sum over
  the second half. After the sums over the edges of each node and the division by the clipped counts, it adds the
  node's own product to the averaged messages and the bias row last, and applies the leaky rectifier; that is the node
  update, which adds the bias row to the product first: a change of brackets in a sum of three extended reals.
-/
import proofs.«131076_j42898133352616_1_alg».proof.Proof.Gen.ReferenceIdeal.Run
import proofs.«131076_j42898133352616_1_alg».proof.Proof.LibEdgeLayer
import Idealize.ShloMosaic.Lib.Pipeline.Value

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀ Cert.Dense Cert.EdgeLayer

/-- Both products of the reference contract the last axis of the left operand with the first of the right. -/
theorem dot256_plain : dot_S600000x256_S256x128_S600000x128_1_0_0_1_n_n = DotDims.plain 600000 256 128 := rfl
theorem dot128_plain : dot_S100000x128_S128x128_S100000x128_1_0_0_1_n_n = DotDims.plain 100000 128 128 := rfl

/-- The joined rows: column k < 128 is column k of the first array. -/
theorem joined_left (g a1 : FVec Ideal S600000x128 .f32) (p : Fin 600000) (k : Fin 128) :
    concatenate S600000x256 1 [⟨S600000x128, g⟩, ⟨S600000x128, a1⟩] concatenates_S600000x128_S600000x128_S600000x256_d1
      (ix2 p (Fin.castAdd 128 k) : S600000x256.Idx) = g (ix2 p k) :=
  concatenate_pair_apply_left (1 : Fin 2) g a1 _ (ix2 p (Fin.castAdd 128 k) : S600000x256.Idx) rfl (ix2 p k) fun b => by
    match b with
    | ⟨0, _⟩ => rfl
    | ⟨1, _⟩ => rfl

/-- The joined rows: column 128 + k is column k of the second array. -/
theorem joined_right (g a1 : FVec Ideal S600000x128 .f32) (p : Fin 600000) (k : Fin 128) :
    concatenate S600000x256 1 [⟨S600000x128, g⟩, ⟨S600000x128, a1⟩] concatenates_S600000x128_S600000x128_S600000x256_d1
      (ix2 p (Fin.natAdd 128 k) : S600000x256.Idx) = a1 (ix2 p k) :=
  concatenate_pair_apply_right (1 : Fin 2) g a1 _ (ix2 p (Fin.natAdd 128 k) : S600000x256.Idx) rfl rfl (ix2 p k)
    (fun b hb => by
      match b with
      | ⟨0, _⟩ => rfl
      | ⟨1, _⟩ => exact absurd rfl hb)
    (by show k.val + 128 = 128 + k.val; omega)

/-- A bias vector cast to one row, read at its one row. -/
theorem row_of_vec (a : FVec Ideal S128 .f32) (hc : S128.ShapeCasts S1x128) (q : Fin 128) :
    shapeCast S1x128 a hc (ix2 (0 : Fin 1) q) = a (ix1 q) :=
  shapeCast_apply a hc (ix2 (0 : Fin 1) q) (ix1 q) (by
    rw [Shape.rowMajor_val_one, Shape.rowMajor_val_two]
    show q.val = 0 * 128 + q.val
    omega)

/-- The reference's messages: the joined rows times the whole weights plus the bias, as the messages built from the
    two halves of the weights and the bias as one row. -/
theorem ref_msg (g a1 : FVec Ideal S600000x128 .f32) (a2 : FVec Ideal S256x128 .f32) (a3 : FVec Ideal S128 .f32)
    (hs0 : S256x128.Slices ![0, 0] S128x128) (hs1 : S256x128.Slices ![128, 0] S128x128) (hc : S128.ShapeCasts S1x128) :
    addf (Host.dotGeneral (F := Ideal) dot_S600000x256_S256x128_S600000x128_1_0_0_1_n_n none
          (concatenate S600000x256 1 [⟨S600000x128, g⟩, ⟨S600000x128, a1⟩] concatenates_S600000x128_S600000x128_S600000x256_d1) a2)
        (broadcastInDim S600000x128 ![0, 1] bcast_S1x128_S600000x128_0_1 (broadcastInDim S1x128 ![1] bcast_S128_S1x128_1 a3))
      = msg (M := 600000) (K := 128) (N := 128) g a1 (extractStridedSlice S128x128 ![0, 0] a2 hs0)
          (extractStridedSlice S128x128 ![128, 0] a2 hs1) (shapeCast S1x128 a3 hc) := by
  rw [dot256_plain, addf_dotGeneral_broadcastInDim]
  funext i
  obtain ⟨p, q, rfl⟩ : ∃ (p : Fin 600000) (q : Fin 128), i = ix2 p q := ⟨i 0, i 1, eq_ix2 i⟩
  show mm _ a2 (ix2 p q) + a3 (ix1 q) = (mm g _ (ix2 p q) + mm a1 _ (ix2 p q)) + shapeCast S1x128 a3 hc (ix2 (0 : Fin 1) q)
  rw [row_of_vec]
  congr 1
  refine mm_joined (M := 600000) (K := 128) (N := 128) _ a2 g a1 _ _ (joined_left g a1) (joined_right g a1) (fun k q => ?_) (fun k q => ?_) p q
  · exact extractStridedSlice_apply ![0, 0] a2 hs0 (ix2 k q) (ix2 (Fin.castAdd 128 k) q : S256x128.Idx) fun a => by
      match a with
      | ⟨0, _⟩ => show k.val = 0 + k.val; omega
      | ⟨1, _⟩ => show q.val = 0 + q.val; omega
  · exact extractStridedSlice_apply ![128, 0] a2 hs1 (ix2 k q) (ix2 (Fin.natAdd 128 k) q : S256x128.Idx) fun a => by
      match a with
      | ⟨0, _⟩ => show 128 + k.val = 128 + k.val; rfl
      | ⟨1, _⟩ => show q.val = 0 + q.val; omega

/-- A scalar word broadcast over the whole shape, read at an entry. -/
theorem splat_apply (b : BitVec 32) (i : S100000x128.Idx) :
    broadcastInDim S100000x128 ![] bcast_S_S100000x128 (constant (F := Ideal) S_ .f32 b) i = FloatOps.ofBits (F := Ideal) .f32 b :=
  broadcastInDim_apply ![] bcast_S_S100000x128 _ i ix0 (fun ax => ax.elim0)

/-- The reference's last lines: averaged messages plus the node's own product, plus the bias, through the leaky
    rectifier, as the node update with the bias as one row. -/
theorem ref_tail (nb a0 : FVec Ideal S100000x128 .f32) (a4 : FVec Ideal S128x128 .f32) (a5 : FVec Ideal S128 .f32)
    (hc : S128.ShapeCasts S1x128) :
    select (cmpf .oge
        (addf (addf nb (Host.dotGeneral (F := Ideal) dot_S100000x128_S128x128_S100000x128_1_0_0_1_n_n none a0 a4))
          (broadcastInDim S100000x128 ![0, 1] bcast_S1x128_S100000x128_0_1 (broadcastInDim S1x128 ![1] bcast_S128_S1x128_1 a5)))
        (broadcastInDim S100000x128 ![] bcast_S_S100000x128 (constant (F := Ideal) S_ .f32 0x00000000#32)))
      (addf (addf nb (Host.dotGeneral (F := Ideal) dot_S100000x128_S128x128_S100000x128_1_0_0_1_n_n none a0 a4))
          (broadcastInDim S100000x128 ![0, 1] bcast_S1x128_S100000x128_0_1 (broadcastInDim S1x128 ![1] bcast_S128_S1x128_1 a5)))
      (mulf (broadcastInDim S100000x128 ![] bcast_S_S100000x128 (constant (F := Ideal) S_ .f32 0x3E6AAAAB#32))
        (addf (addf nb (Host.dotGeneral (F := Ideal) dot_S100000x128_S128x128_S100000x128_1_0_0_1_n_n none a0 a4))
          (broadcastInDim S100000x128 ![0, 1] bcast_S1x128_S100000x128_0_1 (broadcastInDim S1x128 ![1] bcast_S128_S1x128_1 a5))))
      = comb (M := 100000) (K := 128) (N := 128) nb a0 a4 (shapeCast S1x128 a5 hc) := by
  funext i
  obtain ⟨p, q, rfl⟩ : ∃ (p : Fin 100000) (q : Fin 128), i = ix2 p q := ⟨i 0, i 1, eq_ix2 i⟩
  have hX : addf (addf nb (Host.dotGeneral (F := Ideal) dot_S100000x128_S128x128_S100000x128_1_0_0_1_n_n none a0 a4))
      (broadcastInDim S100000x128 ![0, 1] bcast_S1x128_S100000x128_0_1 (broadcastInDim S1x128 ![1] bcast_S128_S1x128_1 a5)) (ix2 p q)
      = (nb (ix2 p q) + mm a0 a4 (ix2 p q)) + shapeCast S1x128 a5 hc (ix2 (0 : Fin 1) q) := by
    rw [row_of_vec, dot128_plain, dotGeneral_plain]
    show (nb (ix2 p q) + mm a0 a4 (ix2 p q)) + broadcastInDim S100000x128 ![0, 1] bcast_S1x128_S100000x128_0_1 (broadcastInDim S1x128 ![1] bcast_S128_S1x128_1 a5) (ix2 p q) = _
    congr 1
    rw [broadcastInDim_apply ![0, 1] bcast_S1x128_S100000x128_0_1 _ (ix2 p q) (ix2 (0 : Fin 1) q) (fun ax => by
        match ax with
        | ⟨0, _⟩ => rfl
        | ⟨1, _⟩ => rfl),
      broadcastInDim_apply ![1] bcast_S128_S1x128_1 a5 (ix2 (0 : Fin 1) q) (ix1 q) (fun ax => by
        match ax with
        | ⟨0, _⟩ => rfl)]
  show Scalar.select (FloatOps.cmpf .oge (addf _ _ (ix2 p q)) (broadcastInDim S100000x128 ![] bcast_S_S100000x128 (constant (F := Ideal) S_ .f32 0x00000000#32) (ix2 p q)))
      (addf _ _ (ix2 p q))
      (FloatOps.mulf (broadcastInDim S100000x128 ![] bcast_S_S100000x128 (constant (F := Ideal) S_ .f32 0x3E6AAAAB#32) (ix2 p q)) (addf _ _ (ix2 p q))) = _
  rw [hX, splat_apply, splat_apply]
  exact comb_assoc nb a0 a4 (shapeCast S1x128 a5 hc) p q

end Cert.ReferenceIdeal.RefValue

end
-- ==== Proof.KernelRun.lean ====
/-
  The whole program's run with its result named.

  The program is a stretch of host operations, the first kernel, a second stretch of host operations and the second
  kernel. Its run is the run of these four segments one after the other: every weakly fair execution ends, without a
  fault, in a state where every buffer the program owns holds what the four segments leave in it one after the other.
  For the argument arrays that is what they held at the launch; for the result array it is what the second kernel's
  write-backs leave there, which the theorem below keeps by name.
-/
import proofs.«131076_j42898133352616_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result array at what the second
    kernel's write-backs leave in it and every argument array as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.KernelBody.lean ====
/-
  What each of the two kernel bodies computes on its blocks, as the layer's two functions.

  On the extended reals a change of float format is the identity and a matrix product accumulated into zero is the
  plain product, so the first body's result is the messages of its block of edges (source features times the upper
  weights, plus edge features times the lower weights, plus the bias row) and the second body's result is the node
  update of its block of nodes (the averaged messages plus the node's own product and bias, through the leaky
  rectifier). The identity casts of a block to its own shape drop out.
-/
import proofs.«131076_j42898133352616_1_alg».proof.Proof.Gen.KernelIdeal.Skeleton
import proofs.«131076_j42898133352616_1_alg».proof.Proof.LibEdgeLayer

noncomputable section

namespace Cert.KernelIdeal.Body

open Idealize.ShloMosaic Idealize.ShloMosaic.ValueIdx Cert.KernelIdeal Cert.KernelIdeal.Gen Cert.Dense Cert.EdgeLayer

/-- Both bodies contract the last axis of the left operand with the first of the right: the plain product. -/
theorem dot_plain : dot_S5000x128_S128x128_S5000x128_1_0_0_1_n_n = DotDims.plain 5000 128 128 := rfl

/-- A product of the bodies, from operands in either float format, into the zero accumulator. -/
theorem body_mm (a : FVec Ideal S5000x128 .f32) (w : FVec Ideal S128x128 .f32) :
    matmul dot_S5000x128_S128x128_S5000x128_1_0_0_1_n_n none (truncf .bf16 a bitsLt_bf16_f32) (truncf .bf16 w bitsLt_bf16_f32)
      (constant (F := Ideal) S5000x128 .f32 0x00000000#32) = mm a w := by
  rw [dot_plain]
  exact matmul_plain_zero none _ _

/-- The first body's stored value is the messages of its blocks. -/
theorem pay0 (v0 v3 : Vec Ideal S5000x128 .f32) (v5 v8 : Vec Ideal S128x128 .f32) (v14 : Vec Ideal S1x128 .f32) :
    k0_pay1 (F := Ideal) v0 v3 v5 v8 v14 = msg v0 v3 v5 v8 v14 := by
  unfold k0_pay1
  dsimp only
  rw [shapeCast_self, shapeCast_self, shapeCast_self, shapeCast_self, body_mm, body_mm]
  funext i
  obtain ⟨p, q, rfl⟩ : ∃ (p : Fin 5000) (q : Fin 128), i = ix2 p q := ⟨i 0, i 1, eq_ix2 i⟩
  show (mm v0 v5 (ix2 p q) + mm v3 v8 (ix2 p q)) + broadcastTo S5000x128 v14 broadcasts_S1x128_S5000x128 (ix2 p q) = _
  rw [broadcastTo_1b_ab_apply]
  rfl

/-- The second body's stored value is the node update of its blocks. -/
theorem pay1 (v0 : Vec Ideal S5000x128 .f32) (v2 : Vec Ideal S128x128 .f32) (v5 : Vec Ideal S1x128 .f32) (v9 : Vec Ideal S5000x128 .f32) :
    k1_pay1 (F := Ideal) v0 v2 v5 v9 = comb v9 v0 v2 v5 := by
  unfold k1_pay1
  dsimp only
  rw [shapeCast_self, shapeCast_self, body_mm]
  funext i
  obtain ⟨p, q, rfl⟩ : ∃ (p : Fin 5000) (q : Fin 128), i = ix2 p q := ⟨i 0, i 1, eq_ix2 i⟩
  show leak (v9 (ix2 p q) + (mm v0 v2 (ix2 p q) + broadcastTo S5000x128 v5 broadcasts_S1x128_S5000x128 (ix2 p q))) = _
  rw [broadcastTo_1b_ab_apply]
  rfl

end Cert.KernelIdeal.Body

end
-- ==== Proof.Region0.lean ====
/-
  The first kernel's output array: the messages of all the edges.

  The grid has 120 points. Point t works on edges 5000·t … 5000·t + 4999: it reads those rows of the gathered source
  features and of the edge features, the two weight matrices and the bias row whole, and writes those rows of the
  result. A row of the messages depends on the same row of the two feature arrays only, so what point t writes is
  rows 5000·t … of the messages of the whole arrays. Every edge e lies in the block of point e / 5000, so the blocks
  cover the array and it ends holding the messages, whatever the contents of the arrays the kernel finds.
-/
import proofs.«131076_j42898133352616_1_alg».proof.Proof.Gen.KernelIdeal.Frame
import proofs.«131076_j42898133352616_1_alg».proof.Proof.KernelBody
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.EdgeLayer

variable (V : (c : Dev nD) → (b : Ref sig .tc) → Buf (Elt Ideal) ((c : Thread nD τ).loc b))

/-- The messages of the arrays the kernel finds: gathered source features, edge features, upper and lower weights,
    bias row. -/
def G (c : Dev nD) : S600000x128.Idx → EReal :=
  msg (M := 600000) (K := 128) (N := 128) (V c main_v6) (V c main_arg1) (V c main_v7) (V c main_v8) (V c main_v9)

theorem hz : (![0, 0] : Fin 2 → Nat) = fun _ => 0 := funext fun a => by fin_cases a <;> rfl

/-- The block each window shows at point t: the feature windows and the output move down with t, the weights and the
    bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 5000·t + p of the array. -/
def row (t : Fin cfg0.N) (p : Fin 5000) : Fin 600000 :=
  ⟨5000 * t.val + p.val, by have ht : t.val < 120 := Nat.lt_of_lt_of_eq t.isLt N_0; have := p.isLt; omega⟩

/-- What point t writes back is block t of the messages. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Body.pay0]
  obtain ⟨e00, e01, e10, e11, e20, e21, e30, e31, e40, e41, e50, e51⟩ := idx_facts t
  have hw2 : (iblk0 V c 2 t : S128x128.Idx → EReal) = V c main_v7 := funext fun y =>
    show V c main_v7 (((cfg0.win 2).blk t).view.emb y) = V c main_v7 y from
    congrArg (V c main_v7) (funext fun a => Fin.ext (by
      match a with
      | ⟨0, _⟩ => show win0_2.index t (0 : Fin 2) * 128 + 1 * (y 0).val = (y 0).val; omega
      | ⟨1, _⟩ => show win0_2.index t (1 : Fin 2) * 128 + 1 * (y 1).val = (y 1).val; omega))
  have hw3 : (iblk0 V c 3 t : S128x128.Idx → EReal) = V c main_v8 := funext fun y =>
    show V c main_v8 (((cfg0.win 3).blk t).view.emb y) = V c main_v8 y from
    congrArg (V c main_v8) (funext fun a => Fin.ext (by
      match a with
      | ⟨0, _⟩ => show win0_3.index t (0 : Fin 2) * 128 + 1 * (y 0).val = (y 0).val; omega
      | ⟨1, _⟩ => show win0_3.index t (1 : Fin 2) * 128 + 1 * (y 1).val = (y 1).val; omega))
  have hw4 : (iblk0 V c 4 t : S1x128.Idx → EReal) = V c main_v9 := funext fun y =>
    show V c main_v9 (((cfg0.win 4).blk t).view.emb y) = V c main_v9 y from
    congrArg (V c main_v9) (funext fun a => Fin.ext (by
      match a with
      | ⟨0, _⟩ => show win0_4.index t (0 : Fin 2) * 1 + 1 * (y 0).val = (y 0).val; omega
      | ⟨1, _⟩ => show win0_4.index t (1 : Fin 2) * 128 + 1 * (y 1).val = (y 1).val; omega))
  have hg : ∀ (p : Fin 5000) (k : Fin 128), (iblk0 V c 0 t : S5000x128.Idx → EReal) (ix2 p k) = V c main_v6 (ix2 (row t p) k) := fun p k =>
    show V c main_v6 (((cfg0.win 0).blk t).view.emb (ix2 p k)) = V c main_v6 (ix2 (row t p) k) from
    congrArg (V c main_v6) (funext fun a => Fin.ext (by
      match a with
      | ⟨0, _⟩ => show win0_0.index t (0 : Fin 2) * 5000 + 1 * p.val = 5000 * t.val + p.val; omega
      | ⟨1, _⟩ => show win0_0.index t (1 : Fin 2) * 128 + 1 * k.val = k.val; omega))
  have he : ∀ (p : Fin 5000) (k : Fin 128), (iblk0 V c 1 t : S5000x128.Idx → EReal) (ix2 p k) = V c main_arg1 (ix2 (row t p) k) := fun p k =>
    show V c main_arg1 (((cfg0.win 1).blk t).view.emb (ix2 p k)) = V c main_arg1 (ix2 (row t p) k) from
    congrArg (V c main_arg1) (funext fun a => Fin.ext (by
      match a with
      | ⟨0, _⟩ => show win0_1.index t (0 : Fin 2) * 5000 + 1 * p.val = 5000 * t.val + p.val; omega
      | ⟨1, _⟩ => show win0_1.index t (1 : Fin 2) * 128 + 1 * k.val = k.val; omega))
  funext j
  show msg (iblk0 V c 0 t : S5000x128.Idx → EReal) (iblk0 V c 1 t : S5000x128.Idx → EReal) (iblk0 V c 2 t : S128x128.Idx → EReal)
      (iblk0 V c 3 t : S128x128.Idx → EReal) (iblk0 V c 4 t : S1x128.Idx → EReal) (j : S5000x128.Idx)
    = G V c (((cfg0.win 5).blk t).view.emb j)
  rw [hw2, hw3, hw4]
  exact msg_block (M := 5000) (M' := 600000) (K := 128) (N := 128) (V c main_v6) (V c main_arg1)
    (iblk0 V c 0 t : S5000x128.Idx → EReal) (iblk0 V c 1 t : S5000x128.Idx → EReal) (V c main_v7) (V c main_v8) (V c main_v9) (row t) hg he
    (j : S5000x128.Idx) (((cfg0.win 5).blk t).view.emb j)
    (Fin.ext (show win0_5.index t (0 : Fin 2) * 5000 + 1 * ((j : S5000x128.Idx) 0).val = 5000 * t.val + ((j : S5000x128.Idx) 0).val by omega))
    (Fin.ext (show win0_5.index t (1 : Fin 2) * 128 + 1 * ((j : S5000x128.Idx) 1).val = ((j : S5000x128.Idx) 1).val by omega))

/-- An index of the array is in point t's block iff each coordinate is in the block's range on its axis. -/
theorem mem_blk (t : Fin cfg0.N) (i : S600000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v10).slice (win0_5.rect t)).set ↔ _
  rw [View.set_slice_whole, Rect.mem_set_unit]
  exact Iff.rfl

/-- Edge e lies in the block of point e / 5000. -/
theorem cover (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 120 := N_0
  let t : Fin cfg0.N := ⟨(i 0).val / 5000, by rw [hN]; omega⟩
  refine ⟨t, flush0_5 t, ?_⟩
  obtain ⟨-, -, -, -, -, -, -, -, -, -, e50, e51⟩ := idx_facts t
  have ht : t.val = (i 0).val / 5000 := rfl
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array after the kernel: the messages of the arrays it found. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  The second kernel's output array: the node update of all the nodes.

  The grid has 20 points. Point t works on nodes 5000·t … 5000·t + 4999: it reads those rows of the averaged messages
  and of the node features, the self-loop weights and bias row whole, and writes those rows of the result. A row of
  the update depends on the same row of the averaged messages and of the node features only, so what point t writes
  is rows 5000·t … of the update of the whole arrays. Every node n lies in the block of point n / 5000, so the blocks
  cover the array and it ends holding the update, whatever the contents of the arrays the kernel finds.
-/
import proofs.«131076_j42898133352616_1_alg».proof.Proof.Gen.KernelIdeal.Frame
import proofs.«131076_j42898133352616_1_alg».proof.Proof.KernelBody
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.EdgeLayer

variable (V : (c : Dev nD) → (b : Ref sig .tc) → Buf (Elt Ideal) ((c : Thread nD τ).loc b))

/-- The node update of the arrays the kernel finds: averaged messages, node features, self-loop weights, bias row. -/
def G (c : Dev nD) : S100000x128.Idx → EReal :=
  comb (M := 100000) (K := 128) (N := 128) (V c main_v22) (V c main_arg0) (V c main_arg4) (V c main_v23)

theorem hz : (![0, 0] : Fin 2 → Nat) = fun _ => 0 := funext fun a => by fin_cases a <;> rfl

/-- The block each window shows at point t: the two row windows and the output move down with t, the weights and the
    bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of point t's block is row 5000·t + p of the array. -/
def row (t : Fin cfg1.N) (p : Fin 5000) : Fin 100000 :=
  ⟨5000 * t.val + p.val, by have ht : t.val < 20 := Nat.lt_of_lt_of_eq t.isLt N_1; have := p.isLt; omega⟩

/-- What point t writes back is block t of the node update. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [Body.pay1]
  obtain ⟨e00, e01, e10, e11, e20, e21, e30, e31, e40, e41⟩ := idx_facts t
  have hw2 : (iblk1 V c 2 t : S128x128.Idx → EReal) = V c main_arg4 := funext fun y =>
    show V c main_arg4 (((cfg1.win 2).blk t).view.emb y) = V c main_arg4 y from
    congrArg (V c main_arg4) (funext fun a => Fin.ext (by
      match a with
      | ⟨0, _⟩ => show win1_2.index t (0 : Fin 2) * 128 + 1 * (y 0).val = (y 0).val; omega
      | ⟨1, _⟩ => show win1_2.index t (1 : Fin 2) * 128 + 1 * (y 1).val = (y 1).val; omega))
  have hw3 : (iblk1 V c 3 t : S1x128.Idx → EReal) = V c main_v23 := funext fun y =>
    show V c main_v23 (((cfg1.win 3).blk t).view.emb y) = V c main_v23 y from
    congrArg (V c main_v23) (funext fun a => Fin.ext (by
      match a with
      | ⟨0, _⟩ => show win1_3.index t (0 : Fin 2) * 1 + 1 * (y 0).val = (y 0).val; omega
      | ⟨1, _⟩ => show win1_3.index t (1 : Fin 2) * 128 + 1 * (y 1).val = (y 1).val; omega))
  have hnb : ∀ (p : Fin 5000) (q : Fin 128), (iblk1 V c 0 t : S5000x128.Idx → EReal) (ix2 p q) = V c main_v22 (ix2 (row t p) q) := fun p q =>
    show V c main_v22 (((cfg1.win 0).blk t).view.emb (ix2 p q)) = V c main_v22 (ix2 (row t p) q) from
    congrArg (V c main_v22) (funext fun a => Fin.ext (by
      match a with
      | ⟨0, _⟩ => show win1_0.index t (0 : Fin 2) * 5000 + 1 * p.val = 5000 * t.val + p.val; omega
      | ⟨1, _⟩ => show win1_0.index t (1 : Fin 2) * 128 + 1 * q.val = q.val; omega))
  have hx : ∀ (p : Fin 5000) (k : Fin 128), (iblk1 V c 1 t : S5000x128.Idx → EReal) (ix2 p k) = V c main_arg0 (ix2 (row t p) k) := fun p k =>
    show V c main_arg0 (((cfg1.win 1).blk t).view.emb (ix2 p k)) = V c main_arg0 (ix2 (row t p) k) from
    congrArg (V c main_arg0) (funext fun a => Fin.ext (by
      match a with
      | ⟨0, _⟩ => show win1_1.index t (0 : Fin 2) * 5000 + 1 * p.val = 5000 * t.val + p.val; omega
      | ⟨1, _⟩ => show win1_1.index t (1 : Fin 2) * 128 + 1 * k.val = k.val; omega))
  funext j
  show comb (iblk1 V c 0 t : S5000x128.Idx → EReal) (iblk1 V c 1 t : S5000x128.Idx → EReal) (iblk1 V c 2 t : S128x128.Idx → EReal)
      (iblk1 V c 3 t : S1x128.Idx → EReal) (j : S5000x128.Idx)
    = G V c (((cfg1.win 4).blk t).view.emb j)
  rw [hw2, hw3]
  exact comb_block (M := 5000) (M' := 100000) (K := 128) (N := 128) (V c main_v22) (V c main_arg0)
    (iblk1 V c 0 t : S5000x128.Idx → EReal) (iblk1 V c 1 t : S5000x128.Idx → EReal) (V c main_arg4) (V c main_v23) (row t) hnb hx
    (j : S5000x128.Idx) (((cfg1.win 4).blk t).view.emb j)
    (Fin.ext (show win1_4.index t (0 : Fin 2) * 5000 + 1 * ((j : S5000x128.Idx) 0).val = 5000 * t.val + ((j : S5000x128.Idx) 0).val by omega))
    (Fin.ext (show win1_4.index t (1 : Fin 2) * 128 + 1 * ((j : S5000x128.Idx) 1).val = ((j : S5000x128.Idx) 1).val by omega))

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v24).slice (win1_4.rect t)).set ↔ _
  rw [View.set_slice_whole, Rect.mem_set_unit]
  exact Iff.rfl

/-- Node n lies in the block of point n / 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  refine ⟨t, flush1_4 t, ?_⟩
  obtain ⟨-, -, -, -, -, -, -, -, e40, e41⟩ := idx_facts t
  have ht : t.val = (i 0).val / 5000 := rfl
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array after the kernel: the node update of the arrays it found. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.KernelValue.lean ====
/-
  The kernel program's result as one function of its eight argument arrays.

  Read backwards from the result array. The second kernel leaves the node update of the arrays it finds: the averaged
  messages, the node features, the self-loop weights, the self-loop bias as one row. The averaged messages it finds
  are what the host operations between the two kernels make of the first kernel's output: the sum of the messages of
  the edges that point at each node, divided by the number of such edges clipped below at one. The first kernel
  leaves the messages of the arrays it finds: the source-node features gathered by the edges' source indices (an
  index below zero counted from the end), the edge features, the upper and lower halves of the weight matrix, the
  bias as one row. No host operation and no kernel writes an argument array, so each of these is read back to what
  the program was launched with.
-/
import proofs.«131076_j42898133352616_1_alg».proof.Proof.KernelRun
import proofs.«131076_j42898133352616_1_alg».proof.Proof.Region0
import proofs.«131076_j42898133352616_1_alg».proof.Proof.Region1
import Idealize.ShloMosaic.Lib.StableHlo.Run
import Idealize.ShloMosaic.PureOps.Ideal

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Dense Cert.EdgeLayer

/-- The source features of every edge: the rows of the node features its source index names, an index below zero
    counted from the end. -/
def gathered (a0 : FVec Ideal S100000x128 .f32) (a6 : IVec S600000 32) : FVec Ideal S600000x128 .f32 :=
  Host.gather gather_S100000x128_S600000x1_S600000x128_1_0_n_n_0_1_1128 a0
    (broadcastInDim S600000x1 ![0] Facts₀.bcast_S600000_S600000x1_0
      (select (cmpi CmpIPredicate.slt a6 (broadcastInDim S600000 ![] Facts₀.bcast_S_S600000 (constantI S_ 32 0#32)))
        (addi a6 (broadcastInDim S600000 ![] Facts₀.bcast_S_S600000 (constantI S_ 32 100000#32))) a6))

/-- The averaged messages of every node: the sum of the messages of the edges that point at it, divided by the
    number of those edges clipped below at one. -/
def neigh (ms : FVec Ideal S600000x128 .f32) (a7 : IVec S600000 32) : FVec Ideal S100000x128 .f32 :=
  Host.divf
    (Host.scatterAdd scatter_S100000x128_S600000x1_S600000x128_1_0_0_1
      (broadcastInDim S100000x128 ![] Facts₀.bcast_S_S100000x128 (constant S_ FTy.f32 0x00000000#32))
      (broadcastInDim S600000x1 ![0] Facts₀.bcast_S600000_S600000x1_0 a7) ms)
    (broadcastInDim S100000x128 ![0, 1] Facts₀.bcast_S100000x1_S100000x128_0_1
      (broadcastInDim S100000x1 ![0] Facts₀.bcast_S100000_S100000x1_0
        (maximumf
          (Host.scatterAdd scatter_S100000_S600000x1_S600000_n_0_0_1
            (broadcastInDim S100000 ![] Facts₀.bcast_S_S100000 (constant S_ FTy.f32 0x00000000#32))
            (broadcastInDim S600000x1 ![0] Facts₀.bcast_S600000_S600000x1_0 a7)
            (broadcastInDim S600000 ![] Facts₀.bcast_S_S600000 (constant S_ FTy.f32 0x3F800000#32)))
          (broadcastInDim S100000 ![] Facts₀.bcast_S_S100000 (constant S_ FTy.f32 0x3F800000#32)))))

/-- The layer: the node update of the averaged messages of the edges' messages. -/
def result (a0 : FVec Ideal S100000x128 .f32) (a1 : FVec Ideal S600000x128 .f32) (a2 : FVec Ideal S256x128 .f32)
    (a3 : FVec Ideal S128 .f32) (a4 : FVec Ideal S128x128 .f32) (a5 : FVec Ideal S128 .f32) (a6 a7 : IVec S600000 32) :
    FVec Ideal S100000x128 .f32 :=
  comb (M := 100000) (K := 128) (N := 128)
    (neigh (msg (M := 600000) (K := 128) (N := 128) (gathered a0 a6) a1
        (extractStridedSlice S128x128 ![0, 0] a2 Facts₀.slices_S256x128_S128x128_0_0)
        (extractStridedSlice S128x128 ![128, 0] a2 Facts₀.slices_S256x128_S128x128_128_0)
        (shapeCast S1x128 a3 Facts₀.shapeCasts_S128_S1x128)) a7)
    a0 a4 (shapeCast S1x128 a5 Facts₀.shapeCasts_S128_S1x128)

variable (m : (ℓ : Loc nD τ sig) → Buf (Elt Ideal) ℓ) (ρ : Dev nD → PrngReg)

/-! ## The first stretch of host operations, from the launch contents -/

theorem first_arg (c : Dev nD) (r : Ref sig .tc) (h : StableHlo.after hostOps0 (W0 m ρ c) (Proc.devRef .tc r) = W0 m ρ c (Proc.devRef .tc r)) :
    V1 m ρ c r = m ((c : Thread nD τ).loc r) := h

theorem first_arg0 (c : Dev nD) : V1 m ρ c main_arg0 = m ((c : Thread nD τ).loc main_arg0) :=
  first_arg m ρ c main_arg0 (by after_results_simp <;> rfl)
theorem first_arg1 (c : Dev nD) : V1 m ρ c main_arg1 = m ((c : Thread nD τ).loc main_arg1) :=
  first_arg m ρ c main_arg1 (by after_results_simp <;> rfl)
theorem first_arg4 (c : Dev nD) : V1 m ρ c main_arg4 = m ((c : Thread nD τ).loc main_arg4) :=
  first_arg m ρ c main_arg4 (by after_results_simp <;> rfl)
theorem first_arg5 (c : Dev nD) : V1 m ρ c main_arg5 = m ((c : Thread nD τ).loc main_arg5) :=
  first_arg m ρ c main_arg5 (by after_results_simp <;> rfl)
theorem first_arg7 (c : Dev nD) : V1 m ρ c main_arg7 = m ((c : Thread nD τ).loc main_arg7) :=
  first_arg m ρ c main_arg7 (by after_results_simp <;> rfl)

theorem first_v6 (c : Dev nD) :
    (V1 m ρ c main_v6 : S600000x128.Idx → EReal) = gathered (m ((c : Thread nD τ).loc main_arg0)) (m ((c : Thread nD τ).loc main_arg6)) := by
  show StableHlo.after hostOps0 (W0 m ρ c) (Proc.devRef .tc main_v6) = _
  after_results_simp <;> rfl

theorem first_v7 (c : Dev nD) :
    (V1 m ρ c main_v7 : S128x128.Idx → EReal) = extractStridedSlice S128x128 ![0, 0] (m ((c : Thread nD τ).loc main_arg2)) Facts₀.slices_S256x128_S128x128_0_0 := by
  show StableHlo.after hostOps0 (W0 m ρ c) (Proc.devRef .tc main_v7) = _
  after_results_simp <;> rfl

theorem first_v8 (c : Dev nD) :
    (V1 m ρ c main_v8 : S128x128.Idx → EReal) = extractStridedSlice S128x128 ![128, 0] (m ((c : Thread nD τ).loc main_arg2)) Facts₀.slices_S256x128_S128x128_128_0 := by
  show StableHlo.after hostOps0 (W0 m ρ c) (Proc.devRef .tc main_v8) = _
  after_results_simp <;> rfl

theorem first_v9 (c : Dev nD) :
    (V1 m ρ c main_v9 : S1x128.Idx → EReal) = shapeCast S1x128 (m ((c : Thread nD τ).loc main_arg3)) Facts₀.shapeCasts_S128_S1x128 := by
  show StableHlo.after hostOps0 (W0 m ρ c) (Proc.devRef .tc main_v9) = _
  after_results_simp <;> rfl

/-! ## Between the kernels: the first kernel's output and the arguments -/

/-- The first kernel leaves the messages of the launch arrays. -/
theorem mid_v10 (c : Dev nD) :
    (W2 m ρ c (Proc.devRef .tc main_v10) : S600000x128.Idx → EReal)
      = msg (M := 600000) (K := 128) (N := 128) (gathered (m ((c : Thread nD τ).loc main_arg0)) (m ((c : Thread nD τ).loc main_arg6)))
          (m ((c : Thread nD τ).loc main_arg1))
          (extractStridedSlice S128x128 ![0, 0] (m ((c : Thread nD τ).loc main_arg2)) Facts₀.slices_S256x128_S128x128_0_0)
          (extractStridedSlice S128x128 ![128, 0] (m ((c : Thread nD τ).loc main_arg2)) Facts₀.slices_S256x128_S128x128_128_0)
          (shapeCast S1x128 (m ((c : Thread nD τ).loc main_arg3)) Facts₀.shapeCasts_S128_S1x128) := by
  refine ((W2_arr m ρ c 5).trans (Region0.final (V1 m ρ) c)).trans ?_
  unfold Region0.G
  rw [first_v6, first_arg1, first_v7, first_v8, first_v9]

theorem mid_arg0 (c : Dev nD) : W2 m ρ c (Proc.devRef .tc main_arg0) = m ((c : Thread nD τ).loc main_arg0) :=
  (W2_of_ne m ρ c main_arg0 (by decide)).trans (first_arg0 m ρ c)
theorem mid_arg4 (c : Dev nD) : W2 m ρ c (Proc.devRef .tc main_arg4) = m ((c : Thread nD τ).loc main_arg4) :=
  (W2_of_ne m ρ c main_arg4 (by decide)).trans (first_arg4 m ρ c)
theorem mid_arg5 (c : Dev nD) : W2 m ρ c (Proc.devRef .tc main_arg5) = m ((c : Thread nD τ).loc main_arg5) :=
  (W2_of_ne m ρ c main_arg5 (by decide)).trans (first_arg5 m ρ c)
theorem mid_arg7 (c : Dev nD) : W2 m ρ c (Proc.devRef .tc main_arg7) = m ((c : Thread nD τ).loc main_arg7) :=
  (W2_of_ne m ρ c main_arg7 (by decide)).trans (first_arg7 m ρ c)

/-! ## The second stretch of host operations -/

theorem second_v22 (c : Dev nD) :
    (V3 m ρ c main_v22 : S100000x128.Idx → EReal) = neigh (W2 m ρ c (Proc.devRef .tc main_v10)) (W2 m ρ c (Proc.devRef .tc main_arg7)) := by
  show StableHlo.after hostOps1 (W2 m ρ c) (Proc.devRef .tc main_v22) = _
  after_results_simp <;> rfl

theorem second_v23 (c : Dev nD) :
    (V3 m ρ c main_v23 : S1x128.Idx → EReal) = shapeCast S1x128 (W2 m ρ c (Proc.devRef .tc main_arg5)) Facts₀.shapeCasts_S128_S1x128 := by
  show StableHlo.after hostOps1 (W2 m ρ c) (Proc.devRef .tc main_v23) = _
  after_results_simp <;> rfl

theorem second_arg0 (c : Dev nD) : V3 m ρ c main_arg0 = W2 m ρ c (Proc.devRef .tc main_arg0) := by
  show StableHlo.after hostOps1 (W2 m ρ c) (Proc.devRef .tc main_arg0) = _
  after_results_simp <;> rfl

theorem second_arg4 (c : Dev nD) : V3 m ρ c main_arg4 = W2 m ρ c (Proc.devRef .tc main_arg4) := by
  show StableHlo.after hostOps1 (W2 m ρ c) (Proc.devRef .tc main_arg4) = _
  after_results_simp <;> rfl

/-! ## The result -/

/-- What the second kernel's write-backs leave in the result array is the layer of the launch arrays. -/
theorem value (c : Dev nD) :
    W4 m ρ c (Proc.devRef .tc main_v24)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine ((W4_arr m ρ c 4).trans (Region1.final (V3 m ρ) c)).trans ?_
  unfold Region1.G result
  rw [second_v22, second_arg0, second_arg4, second_v23, mid_v10, mid_arg0, mid_arg4, mid_arg5, mid_arg7]

/-- Every weakly fair execution of the program ends, nothing faulting, with the result array at the layer of the
    launch arrays and every argument array as launched. -/
theorem run : θ_run defs (onTc (τ := τ) (main (F := Ideal))) ⟨m, fun _ => 0, ρ⟩ (fun r => ∀ c : Dev nD,
      r.2.mem ((c.tc : Thread nD τ).loc main_v24)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (run_result m ρ)

end Cert.KernelIdeal.Whole

end
-- ==== Proof.Bridge.lean ====
/-
  The two programs compute one function.

  The reference's result, written out as one term of its argument arrays, is the layer of those arrays: its last
  lines are the node update (a change of brackets in a sum of three terms), and inside the sums over edges its
  product of the joined feature rows with the whole weight matrix plus the bias is the messages built from the two
  halves of the weight matrix (a sum over the joined columns split at the middle). Everything between — the gather
  of the source rows, the sums over the edges of each node, the clipped count, the division — is the same operations
  on the same operands in both programs.
-/
import proofs.«131076_j42898133352616_1_alg».proof.Proof.RefValue
import proofs.«131076_j42898133352616_1_alg».proof.Proof.KernelValue

set_option maxRecDepth 16384

noncomputable section

namespace Cert.Proof.Bridge

open Idealize.ShloMosaic Idealize.ShloMosaic.TcCoe Idealize.SL.Sem

/-- The reference's result term is the layer of its argument arrays. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v33 m c = Cert.KernelIdeal.Whole.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) := by
  unfold Cert.ReferenceIdeal.Value.res_main_v33
  rw [Cert.ReferenceIdeal.RefValue.ref_tail _ _ _ _ Cert.KernelIdeal.Facts₀.shapeCasts_S128_S1x128]
  rw [Cert.ReferenceIdeal.RefValue.ref_msg _ _ _ _ Cert.KernelIdeal.Facts₀.slices_S256x128_S128x128_0_0 Cert.KernelIdeal.Facts₀.slices_S256x128_S128x128_128_0
    Cert.KernelIdeal.Facts₀.shapeCasts_S128_S1x128]
  rfl

end Cert.Proof.Bridge

end
-- ==== Proof.lean ====
/-
  One layer of message passing over a graph with 100000 nodes and 600000 edges: the kernel program against its
  reference, on the extended reals.

  Both programs gather each edge's source-node features, form a message per edge, sum the messages of the edges that
  point at each node, divide by the number of such edges clipped below at one, add the node's own features times a
  second weight matrix and a second bias, and apply a leaky rectifier with the same slope word. They differ in two
  places. The kernel program forms the messages in a first kernel, 5000 edges at a time, as source features times the
  upper half of the weight matrix plus edge features times the lower half plus the bias; the reference joins the two
  feature rows and multiplies by the whole weight matrix. These agree because a sum over the 256 joined columns is the
  sum over the first 128 plus the sum over the last 128. The kernel program forms the output in a second kernel, 5000
  nodes at a time, adding the bias row to the node's own product before the averaged messages; the reference adds it
  last. These agree because addition is associative. Both laws hold for every extended real, infinite ones included,
  so the precondition that the inputs are finite is never opened. Changes of float format inside the kernels are the
  identity on the extended reals, and the kernel program's sanctioned idealization rewrote nothing.
-/
import proofs.«131076_j42898133352616_1_alg».proof.Defs
import proofs.«131076_j42898133352616_1_alg».proof.Proof.Gen.Kernel
import proofs.«131076_j42898133352616_1_alg».proof.Proof.Gen.Kernel.Skeleton
import proofs.«131076_j42898133352616_1_alg».proof.Proof.Gen.Kernel.Launch
import proofs.«131076_j42898133352616_1_alg».proof.Proof.Gen.Kernel.Points
import proofs.«131076_j42898133352616_1_alg».proof.Proof.Gen.Kernel.Frame
import proofs.«131076_j42898133352616_1_alg».proof.Proof.Gen.KernelIdeal
import proofs.«131076_j42898133352616_1_alg».proof.Proof.Gen.KernelIdeal.Skeleton
import proofs.«131076_j42898133352616_1_alg».proof.Proof.Gen.KernelIdeal.Launch
import proofs.«131076_j42898133352616_1_alg».proof.Proof.Gen.KernelIdeal.Points
import proofs.«131076_j42898133352616_1_alg».proof.Proof.Gen.KernelIdeal.Frame
import proofs.«131076_j42898133352616_1_alg».proof.Proof.Gen.ReferenceIdeal
import proofs.«131076_j42898133352616_1_alg».proof.Proof.Gen.ReferenceIdeal.Run
import proofs.«131076_j42898133352616_1_alg».proof.Proof.Gen.ReferenceIdeal.Read
import proofs.«131076_j42898133352616_1_alg».proof.Proof.Gen.Pre_finite_inputs
import proofs.«131076_j42898133352616_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of those arguments in their result. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Bridge.ref_result]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
